-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64 : Shape := ⟨1, ![64]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S64x3x512x512 .f32) (main_arg1 : FVec F S64 .f32) (main_arg2 : FVec F S64 .f32) (main_arg3 : FVec F S64 .f32) (main_arg4 : FVec F S64 .f32) (main_arg5 : FVec F S64 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S64x3x512x512 : Shape := ⟨4, ![64, 3, 512, 512]⟩
abbrev S64 : Shape := ⟨1, ![64]⟩
abbrev S_ : Shape := ⟨0, ![]⟩
abbrev S1x3x512x512 : Shape := ⟨4, ![1, 3, 512, 512]⟩
abbrev S1 : Shape := ⟨1, ![1]⟩
abbrev S1x1x512x512 : Shape := ⟨4, ![1, 1, 512, 512]⟩

abbrev nBuf : Space → Nat
  | .hbm => 74
  | .vmem => 4
  | .smem => 4
  | _ => 0

abbrev bufTy : (tb : Table) → Fin (tcTables nBuf tb) → BufTy
  | .hbm, ⟨0, _⟩ => ⟨S64x3x512x512, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .i1⟩
  | .hbm, ⟨31, _⟩ => ⟨S64, .i1⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .i32⟩
  | .hbm, ⟨56, _⟩ => ⟨S64, .i32⟩
  | .hbm, ⟨57, _⟩ => ⟨S64, .i32⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .smem, ⟨0, _⟩ => ⟨S64, .i32⟩
  | .local _ .smem, ⟨1, _⟩ => ⟨S64, .i32⟩
  | .local _ .smem, ⟨2, _⟩ => ⟨S64, .i32⟩
  | .local _ .smem, ⟨3, _⟩ => ⟨S64, .i32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v22 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_cst_10 : Ref sig .tc := ⟨.hbm, 48, rfl⟩
abbrev main_call5_v0 : Ref sig .tc := ⟨.hbm, 49, rfl⟩
abbrev main_call5_v1 : Ref sig .tc := ⟨.hbm, 50, rfl⟩
abbrev main_call5_v2 : Ref sig .tc := ⟨.hbm, 51, rfl⟩
abbrev main_call5_v3 : Ref sig .tc := ⟨.hbm, 52, rfl⟩
abbrev main_call5_v4 : Ref sig .tc := ⟨.hbm, 53, rfl⟩
abbrev main_v27 : Ref sig .tc := ⟨.hbm, 54, rfl⟩
abbrev main_c : Ref sig .tc := ⟨.hbm, 55, rfl⟩
abbrev main_v29 : Ref sig .tc := ⟨.hbm, 56, rfl⟩
abbrev main_v30 : Ref sig .tc := ⟨.hbm, 57, rfl⟩
abbrev main_c_11 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_12 : Ref sig .tc := ⟨.hbm, 64, rfl⟩
abbrev main_v37 : Ref sig .tc := ⟨.hbm, 65, rfl⟩
abbrev main_v38 : Ref sig .tc := ⟨.hbm, 66, rfl⟩
abbrev main_c_13 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v45 : Ref sig .tc := ⟨.hbm, 73, rfl⟩
abbrev main_v44 : Ref sig .tc := ⟨.smem, 0, rfl⟩
abbrev main_v23 : Ref sig .tc := ⟨.smem, 1, rfl⟩
abbrev main_v36 : Ref sig .tc := ⟨.smem, 2, rfl⟩
abbrev main_v28 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨4, ![main_v44.idx, main_v23.idx, main_v36.idx, main_v28.idx], fun | 0 => main_v44.names | 1 => main_v23.names | 2 => main_v36.names | 3 => main_v28.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S64 : S_.BroadcastsInDim S64 (![] : Fin 0 → Fin S64.rank)
  numel1_S1 : S1.numel = 1
  iota_S1x1x512x512_d2_w32 : S1x1x512x512.Iotas .tc 32 [2]
  iota_S1x1x512x512_d3_w32 : S1x1x512x512.Iotas .tc 32 [3]
  inb_S1x3x512x512_S1x3x512x512_0_0_0_0 : ∀ a, (![0, 0, 0, 0] : Fin 4 → Nat) a + S1x3x512x512.size a ≤ S1x3x512x512.size a
  h_S1x3x512x512 : 0 < S1x3x512x512.numel
  broadcasts_S1x1x512x512_S1x3x512x512 : S1x1x512x512.Broadcasts S1x3x512x512
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S64x3x512x512.size a
  hwx0_1 : ∀ i : grid0.Coords, EltTy.bits .f32 = 32 ∨ (Rect.block (s := S64x3x512x512) S1x3x512x512.size (cc0_transform_1 i) (hinb0_1 i)).WholeWords (EltTy.packing .f32)

variable [Facts₀]

abbrev spec0_0 : Pipeline.WinSpec sig grid0.rank :=
  Pipeline.WinSpec.ofSpec (Memref.whole main_arg0) S1x3x512x512.size reads0_0 false false 2 stage0_0 sem0_0 nbuf0_0 hstage0_0

abbrev spec0_1 : Pipeline.WinSpec sig grid0.rank :=
  Pipeline.WinSpec.ofSpec (Memref.whole main_v45) S1x3x512x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x3x512x512 : Shape := ⟨4, ![64, 3, 512, 512]⟩
abbrev S64 : Shape := ⟨1, ![64]⟩
abbrev S_ : Shape := ⟨0, ![]⟩
abbrev S512 : Shape := ⟨1, ![512]⟩
abbrev S1x512 : Shape := ⟨2, ![1, 512]⟩
abbrev S64x1 : Shape := ⟨2, ![64, 1]⟩
abbrev S64x512 : Shape := ⟨2, ![64, 512]⟩
abbrev S64x1x512x1 : Shape := ⟨4, ![64, 1, 512, 1]⟩
abbrev S64x1x1x512 : Shape := ⟨4, ![64, 1, 1, 512]⟩
abbrev S64x1x512x512 : Shape := ⟨4, ![64, 1, 512, 512]⟩

abbrev nBuf : Space → Nat
  | .hbm => 116
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .i1⟩
  | .hbm, ⟨31, _⟩ => ⟨S64, .i1⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .i32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .i32⟩
  | .hbm, ⟨57, _⟩ => ⟨S_, .i32⟩
  | .hbm, ⟨58, _⟩ => ⟨S64, .i32⟩
  | .hbm, ⟨59, _⟩ => ⟨S64, .i32⟩
  | .hbm, ⟨60, _⟩ => ⟨S_, .i32⟩
  | .hbm, ⟨61, _⟩ => ⟨S64, .i32⟩
  | .hbm, ⟨62, _⟩ => ⟨S64, .i32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .i32⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S_, .i32⟩
  | .hbm, ⟨71, _⟩ => ⟨S64, .i32⟩
  | .hbm, ⟨72, _⟩ => ⟨S64, .i32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S64, .i32⟩
  | .hbm, ⟨77, _⟩ => ⟨S512, .i32⟩
  | .hbm, ⟨78, _⟩ => ⟨S512, .i32⟩
  | .hbm, ⟨79, _⟩ => ⟨S1x512, .i32⟩
  | .hbm, ⟨80, _⟩ => ⟨S64x1, .i32⟩
  | .hbm, ⟨81, _⟩ => ⟨S64x512, .i32⟩
  | .hbm, ⟨82, _⟩ => ⟨S64x512, .i32⟩
  | .hbm, ⟨83, _⟩ => ⟨S64x512, .i1⟩
  | .hbm, ⟨84, _⟩ => ⟨S1x512, .i32⟩
  | .hbm, ⟨85, _⟩ => ⟨S64, .i32⟩
  | .hbm, ⟨86, _⟩ => ⟨S64x1, .i32⟩
  | .hbm, ⟨87, _⟩ => ⟨S64x512, .i32⟩
  | .hbm, ⟨88, _⟩ => ⟨S64x512, .i32⟩
  | .hbm, ⟨89, _⟩ => ⟨S64x512, .i1⟩
  | .hbm, ⟨90, _⟩ => ⟨S64x512, .i1⟩
  | .hbm, ⟨91, _⟩ => ⟨S1x512, .i32⟩
  | .hbm, ⟨92, _⟩ => ⟨S64x1, .i32⟩
  | .hbm, ⟨93, _⟩ => ⟨S64x512, .i32⟩
  | .hbm, ⟨94, _⟩ => ⟨S64x512, .i32⟩
  | .hbm, ⟨95, _⟩ => ⟨S64x512, .i1⟩
  | .hbm, ⟨96, _⟩ => ⟨S1x512, .i32⟩
  | .hbm, ⟨97, _⟩ => ⟨S64, .i32⟩
  | .hbm, ⟨98, _⟩ => ⟨S64x1, .i32⟩
  | .hbm, ⟨99, _⟩ => ⟨S64x512, .i32⟩
  | .hbm, ⟨100, _⟩ => ⟨S64x512, .i32⟩
  | .hbm, ⟨101, _⟩ => ⟨S64x512, .i1⟩
  | .hbm, ⟨102, _⟩ => ⟨S64x512, .i1⟩
  | .hbm, ⟨103, _⟩ => ⟨S64x1x512x1, .i1⟩
  | .hbm, ⟨104, _⟩ => ⟨S64x1x1x512, .i1⟩
  | .hbm, ⟨105, _⟩ => ⟨S64x1x512x512, .i1⟩
  | .hbm, ⟨106, _⟩ => ⟨S64x1x512x512, .i1⟩
  | .hbm, ⟨107, _⟩ => ⟨S64x1x512x512, .i1⟩
  | .hbm, ⟨108, _⟩ => ⟨S_, .f32⟩
  | .hbm, ⟨109, _⟩ => ⟨S_, .f32⟩
  | .hbm, ⟨110, _⟩ => ⟨S64x1x512x512, .f32⟩
  | .hbm, ⟨111, _⟩ => ⟨S64x1x512x512, .f32⟩
  | .hbm, ⟨112, _⟩ => ⟨S64x1x512x512, .f32⟩
  | .hbm, ⟨113, _⟩ => ⟨S64x1x512x512, .f32⟩
  | .hbm, ⟨114, _⟩ => ⟨S64x3x512x512, .f32⟩
  | .hbm, ⟨115, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_cst_10 : Ref sig .tc := ⟨.hbm, 49, rfl⟩
abbrev main_call5_v0 : Ref sig .tc := ⟨.hbm, 50, rfl⟩
abbrev main_call5_v1 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_v27 : Ref sig .tc := ⟨.hbm, 55, rfl⟩
abbrev main_v28 : Ref sig .tc := ⟨.hbm, 56, rfl⟩
abbrev main_c : Ref sig .tc := ⟨.hbm, 57, rfl⟩
abbrev main_v29 : Ref sig .tc := ⟨.hbm, 58, rfl⟩
abbrev main_v30 : Ref sig .tc := ⟨.hbm, 59, rfl⟩
abbrev main_c_11 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_12 : Ref sig .tc := ⟨.hbm, 67, rfl⟩
abbrev main_v37 : Ref sig .tc := ⟨.hbm, 68, rfl⟩
abbrev main_v38 : Ref sig .tc := ⟨.hbm, 69, rfl⟩
abbrev main_c_13 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_cst_15 : Ref sig .tc := ⟨.hbm, 109, rfl⟩
abbrev main_call6_v0 : Ref sig .tc := ⟨.hbm, 110, rfl⟩
abbrev main_call6_v1 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S64x512_S64x1x512x1_0_2 : S64x512.BroadcastsInDim S64x1x512x1 (![0, 2] : Fin 2 → Fin S64x1x512x1.rank)
  bcast_S64x512_S64x1x1x512_0_3 : S64x512.BroadcastsInDim S64x1x1x512 (![0, 3] : Fin 2 → Fin S64x1x1x512.rank)
  bcast_S64x1x512x1_S64x1x512x512_0_1_2_3 : S64x1x512x1.BroadcastsInDim S64x1x512x512 (![0, 1, 2, 3] : Fin 4 → Fin S64x1x512x512.rank)
  bcast_S64x1x1x512_S64x1x512x512_0_1_2_3 : S64x1x1x512.BroadcastsInDim S64x1x512x512 (![0, 1, 2, 3] : Fin 4 → Fin S64x1x512x512.rank)
  bcast_S_S64x1x512x512 : S_.BroadcastsInDim S64x1x512x512 (![] : Fin 0 → Fin S64x1x512x512.rank)
  bcast_S64x1x512x512_S64x3x512x512_0_1_2_3 : S64x1x512x512.BroadcastsInDim S64x3x512x512 (![0, 1, 2, 3] : Fin 4 → Fin S64x3x512x512.rank)

variable [Facts₀]

class Facts : Prop extends Facts₀ where

variable [Facts]
-- ==== Proof.PointStores.lean ====
/-
  What one grid point leaves in the output's staging buffer.

  The body's run ends with ONE store that covers the whole [1, 3, 512, 512] staging buffer. Its value is the body's
  arithmetic (the generated `k0_pay1`) of five things the body loaded: one word from each of the four per-sample
  tables, at the offset the grid coordinate gives, and the whole input block. A one-word load at offset `k` of a table
  reads the table's entry `k`; a whole-block load of a whole buffer reads the buffer. So the staging buffer ends
  holding `k0_pay1` of the four tables' entries at the point's sample and of the input block.
-/
import proofs.«147597_j54065048322154_1_alg».proof.Proof.Patched.KernelIdeal.Frame
import Idealize.ShloMosaic.Lib.Pipeline.Value
import Idealize.ShloMosaic.Lib.ValueIdx
import Idealize.ShloMosaic.Lib.Tactic

set_option maxRecDepth 16384

noncomputable section

namespace Cert.KernelIdeal.PointStores

open Cert.KernelIdeal Cert.KernelIdeal.Gen Cert.KernelIdeal.GenP
open Idealize.ShloMosaic Idealize.ShloMosaic.TcCoe Idealize.ShloMosaic.Tactic Idealize.ShloMosaic.ValueIdx Idealize.SL.Sem

variable {F : FTy → Type} [FloatOps F]

theorem hz : (![0, 0, 0, 0] : Fin 4 → Nat) = fun _ => 0 := funext fun a => by fin_cases a <;> rfl

/-- A one-word load at offset `k` of the first table reads its entry `k`. -/
theorem word0 (c : Dev nD) (xt : TbBuf0 (F := F) c tbM0_0) (off : Fin 1 → Nat) (k : Fin 64) (hoff : off 0 = k.val)
    (inb : ∀ a, off a + S1.size a ≤ S64.size a) (h1 : 0 < S1.numel) :
    View.readAt (Elt F) tbM0_0.view (Rect.unit (s := S64) off S1.size inb).toLoadRect xt (Shape.Idx.first h1) = xt (ix1 k) := by
  rw [View.readAt_eq_ld]
  show xt _ = xt _
  refine congrArg xt (funext fun a => Fin.ext ?_)
  match a with
  | ⟨0, _⟩ => show off 0 + 1 * 0 = k.val; rw [hoff]; omega

/-- The same for the second table, -/
theorem word1 (c : Dev nD) (xt : TbBuf0 (F := F) c tbM0_1) (off : Fin 1 → Nat) (k : Fin 64) (hoff : off 0 = k.val)
    (inb : ∀ a, off a + S1.size a ≤ S64.size a) (h1 : 0 < S1.numel) :
    View.readAt (Elt F) tbM0_1.view (Rect.unit (s := S64) off S1.size inb).toLoadRect xt (Shape.Idx.first h1) = xt (ix1 k) := by
  rw [View.readAt_eq_ld]
  show xt _ = xt _
  refine congrArg xt (funext fun a => Fin.ext ?_)
  match a with
  | ⟨0, _⟩ => show off 0 + 1 * 0 = k.val; rw [hoff]; omega

/-- the third, -/
theorem word2 (c : Dev nD) (xt : TbBuf0 (F := F) c tbM0_2) (off : Fin 1 → Nat) (k : Fin 64) (hoff : off 0 = k.val)
    (inb : ∀ a, off a + S1.size a ≤ S64.size a) (h1 : 0 < S1.numel) :
    View.readAt (Elt F) tbM0_2.view (Rect.unit (s := S64) off S1.size inb).toLoadRect xt (Shape.Idx.first h1) = xt (ix1 k) := by
  rw [View.readAt_eq_ld]
  show xt _ = xt _
  refine congrArg xt (funext fun a => Fin.ext ?_)
  match a with
  | ⟨0, _⟩ => show off 0 + 1 * 0 = k.val; rw [hoff]; omega

/-- and the fourth. -/
theorem word3 (c : Dev nD) (xt : TbBuf0 (F := F) c tbM0_3) (off : Fin 1 → Nat) (k : Fin 64) (hoff : off 0 = k.val)
    (inb : ∀ a, off a + S1.size a ≤ S64.size a) (h1 : 0 < S1.numel) :
    View.readAt (Elt F) tbM0_3.view (Rect.unit (s := S64) off S1.size inb).toLoadRect xt (Shape.Idx.first h1) = xt (ix1 k) := by
  rw [View.readAt_eq_ld]
  show xt _ = xt _
  refine congrArg xt (funext fun a => Fin.ext ?_)
  match a with
  | ⟨0, _⟩ => show off 0 + 1 * 0 = k.val; rw [hoff]; omega

/-- What the body leaves in the output's staging buffer at a point whose table offset is `k`: the body's arithmetic of
    the four tables' entries `k` and of the input block. -/
theorem stored (c : Dev nD) (i : grid0.Coords) (arg5 : Memref sig .tc .vmem S1x3x512x512 .f32) (harg5 : arg5.IsWhole)
    (arg6 : Memref sig .tc .vmem S1x3x512x512 .f32) (harg6 : arg6.IsWhole)
    (x0 : Vec F S1x3x512x512 .f32) (xt0 : TbBuf0 (F := F) c tbM0_0) (xt1 : TbBuf0 (F := F) c tbM0_1)
    (xt2 : TbBuf0 (F := F) c tbM0_2) (xt3 : TbBuf0 (F := F) c tbM0_3) (k : Fin 64) (hk : k0_off1 i 0 = k.val) :
    out0_A_1 c i arg5 harg5 arg6 harg6 x0 xt0 xt1 xt2 xt3
      = k0_pay1 (F := F) (xt0 (ix1 k)) (xt1 (ix1 k)) (xt2 (ix1 k)) (xt3 (ix1 k)) x0 := by
  unfold out0_A_1
  rw [View.read_writes_eq_canon _ _ _ (cover0_A_1 c i arg5 harg5 arg6 harg6 x0 xt0 xt1 xt2 xt3)]
  unfold kernelRun0_A
  dsimp only
  sl_unfold_words
  rw [View.canon_unit_zero hz]
  refine congr (congr (congr (congr (congrArg (k0_pay1 (F := F)) (word0 c xt0 _ k hk _ _)) (word1 c xt1 _ k hk _ _))
    (word2 c xt2 _ k hk _ _)) (word3 c xt3 _ k hk _ _)) ?_
  rw [View.readAt_eq_ld, harg5.read_unread, View.ld_unit_zero (S := S1x3x512x512) hz]

end Cert.KernelIdeal.PointStores

end
-- ==== Proof.ErasedImage.lean ====
/-
  The erased image, as one function of the image and of four per-sample integer words.

  Sample `b` of a batch of 64 images (3 channels, 512 rows, 512 columns) carries a box: its top row `top b`,
  its height `height b`, its left column `left b` and its width `width b`, four 32-bit words. Entry
  `(b, c, y, x)` of the erased image is the image's entry times `0` when `top b ≤ y < top b + height b` and
  `left b ≤ x < left b + width b` (signed comparisons of 32-bit words, the sums wrapping), and times `1`
  otherwise. The channel `c` plays no part in the factor.

  Both programs of the certificate compute this function; nothing here depends on either of them.
-/
import Idealize.ShloMosaic.PureOps.Ideal
import Idealize.ShloMosaic.Lib.ValueIdx

noncomputable section

namespace Cert.Erase

open Idealize.ShloMosaic Idealize.ShloMosaic.ValueIdx

variable {F : FTy → Type} [FloatOps F]

/-- The one-bit word that is `1` exactly when row `y` and column `x` lie inside the box: `top ≤ y`, `y < top + height`,
    `left ≤ x` and `x < left + width`, read as signed 32-bit words. -/
def inBox (top height left width : BitVec 32) (y x : Nat) : BitVec 1 :=
  IntOp.andi
    (IntOp.andi (IntOp.cmpi .sge (BitVec.ofNat 32 y) top) (IntOp.cmpi .slt (BitVec.ofNat 32 y) (IntOp.addi top height)))
    (IntOp.andi (IntOp.cmpi .sge (BitVec.ofNat 32 x) left) (IntOp.cmpi .slt (BitVec.ofNat 32 x) (IntOp.addi left width)))

/-- The factor an entry is multiplied by: `0` inside the box, `1` outside. -/
def factor (top height left width : BitVec 32) (y x : Nat) : F .f32 :=
  Scalar.select (inBox top height left width y x) (FloatOps.ofBits .f32 0x00000000#32) (FloatOps.ofBits .f32 0x3F800000#32)

/-- The sample an entry of the image belongs to, as an index of a per-sample word array. -/
abbrev sampleOf (i : (⟨4, ![64, 3, 512, 512]⟩ : Shape).Idx) : (⟨1, ![64]⟩ : Shape).Idx :=
  ix1 (⟨(i 0).val, (i 0).isLt⟩ : Fin 64)

/-- The erased image: each entry times the factor of its sample's box at its row and column. -/
def erased (img : (⟨4, ![64, 3, 512, 512]⟩ : Shape).Idx → F .f32)
    (top height left width : (⟨1, ![64]⟩ : Shape).Idx → BitVec 32) :
    (⟨4, ![64, 3, 512, 512]⟩ : Shape).Idx → F .f32 :=
  fun i => FloatOps.mulf (img i)
    (factor (top (sampleOf i)) (height (sampleOf i)) (left (sampleOf i)) (width (sampleOf i)) (i 2).val (i 3).val)

end Cert.Erase

end
-- ==== Proof.StoredEntry.lean ====
/-
  What the kernel body stores, read at one entry of the block.

  At a grid point the body has four words in hand (the box's top, height, left and width of the point's sample) and
  the sample's image block `img` of shape [1, 3, 512, 512]. It builds the row numbers and the column numbers of a
  [1, 1, 512, 512] plane, compares them with the words, selects `0` inside the box and `1` outside, stretches that
  plane over the three channels and multiplies the block by it. Read at entry `(0, c, y, x)`: the stretch forgets the
  channel, the row number of the plane's entry `(0, 0, y, x)` is `y` and its column number is `x`, so the stored entry
  is `img (0, c, y, x)` times the box factor of `ErasedImage.lean` at row `y` and column `x`.
-/
import proofs.«147597_j54065048322154_1_alg».proof.Proof.Gen.KernelIdeal.Skeleton
import proofs.«147597_j54065048322154_1_alg».proof.Proof.ErasedImage
import Idealize.ShloMosaic.Lib.Pipeline.Value

noncomputable section

namespace Cert.KernelIdeal.Stored

open Cert.KernelIdeal Cert.KernelIdeal.Gen Idealize.ShloMosaic Idealize.ShloMosaic.ValueIdx Cert.Erase

variable {F : FTy → Type} [FloatOps F]

/-- The entry of the [1, 1, 512, 512] plane that the stretch over channels reads for entry `j` of the block: the same
    row and column, the two leading coordinates `0`. -/
abbrev planeOf (j : S1x3x512x512.Idx) : S1x1x512x512.Idx :=
  ix4 (0 : Fin 1) (0 : Fin 1) (⟨(j 2).val, (j 2).isLt⟩ : Fin 512) (⟨(j 3).val, (j 3).isLt⟩ : Fin 512)

/-- The stored block at entry `j`: the loaded block's entry times the box factor of the four words at `j`'s row and
    column. -/
theorem stored_apply (top height left width : BitVec 32) (img : Vec F S1x3x512x512 .f32) (j : S1x3x512x512.Idx) :
    k0_pay1 (F := F) top height left width img j
      = FloatOps.mulf (img j) (factor top height left width (j 2).val (j 3).val) := by
  unfold k0_pay1
  dsimp only
  -- the product is entrywise; the stretched plane at `j` is the plane at `planeOf j`
  refine congrArg (FloatOps.mulf (img j)) ?_
  refine (broadcastTo_apply _ broadcasts_S1x1x512x512_S1x3x512x512 j (planeOf j) (fun a => ?_)).trans ?_
  · match a with
    | ⟨0, _⟩ => rfl
    | ⟨1, _⟩ => rfl
    | ⟨2, _⟩ => rfl
    | ⟨3, _⟩ => rfl
  -- the selection, the conjunctions and the comparisons are entrywise; the numbering along one axis reads that coordinate
  show Scalar.select (IntOp.andi
      (IntOp.andi (IntOp.cmpi .sge (iota .tc S1x1x512x512 32 [2] iota_S1x1x512x512_d2_w32 (planeOf j)) top)
        (IntOp.cmpi .slt (iota .tc S1x1x512x512 32 [2] iota_S1x1x512x512_d2_w32 (planeOf j)) (Scalar.addi top height)))
      (IntOp.andi (IntOp.cmpi .sge (iota .tc S1x1x512x512 32 [3] iota_S1x1x512x512_d3_w32 (planeOf j)) left)
        (IntOp.cmpi .slt (iota .tc S1x1x512x512 32 [3] iota_S1x1x512x512_d3_w32 (planeOf j)) (Scalar.addi left width))))
      (Scalar.ofBits .f32 0x00000000#32) (Scalar.ofBits .f32 0x3F800000#32) = _
  rw [iota_single_apply, iota_single_apply]
  rfl

end Cert.KernelIdeal.Stored

end
-- ==== Proof.BoxWords.lean ====
/-
  The four per-sample tables the kernel is launched with are the reference's own box words.

  Before the launch the kernel's program computes, from the five per-sample float arguments, four arrays of 64 words:
  each sample's box top, height, left and width. The reference computes the same four arrays by the same operations on
  the same constants, in the same order (they are the stages `%44`, `%23`, `%36` and `%28` of both programs). What the
  region finds in each table when it is entered is the composition of the host operations that wrote it, read off the
  launch memory; that composition is, term for term, the reference's stage as a function of the arguments. The stages
  themselves — roundings, square roots, clamps, conversions to integers — are never opened: both sides carry them as
  the same function.
-/
import proofs.«147597_j54065048322154_1_alg».proof.Proof.Patched.KernelIdeal.Runs
import proofs.«147597_j54065048322154_1_alg».proof.Proof.Gen.ReferenceIdeal.Read
import Idealize.ShloMosaic.Lib.StableHlo.Run

set_option maxRecDepth 16384

noncomputable section

namespace Cert.KernelIdeal.BoxWords

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The table of box tops, as the region finds it, is the reference's stage `%44` of the arguments. -/
theorem top_eq (c : Dev nD) :
    (V m c main_v44 : S64.Idx → BitVec 32)
      = Cert.ReferenceIdeal.Read.val_main_v44 (F := F) (m ((c.tc : Thread nD τ).loc main_arg1)) (m ((c.tc : Thread nD τ).loc main_arg2)) (m ((c.tc : Thread nD τ).loc main_arg3)) (m ((c.tc : Thread nD τ).loc main_arg5)) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 4000000 in
/-- The table of box heights is the reference's stage `%23`. -/
theorem height_eq (c : Dev nD) :
    (V m c main_v23 : S64.Idx → BitVec 32)
      = Cert.ReferenceIdeal.Read.val_main_v23 (F := F) (m ((c.tc : Thread nD τ).loc main_arg1)) (m ((c.tc : Thread nD τ).loc main_arg2)) (m ((c.tc : Thread nD τ).loc main_arg3)) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 4000000 in
/-- The table of box lefts is the reference's stage `%36`. -/
theorem left_eq (c : Dev nD) :
    (V m c main_v36 : S64.Idx → BitVec 32)
      = Cert.ReferenceIdeal.Read.val_main_v36 (F := F) (m ((c.tc : Thread nD τ).loc main_arg1)) (m ((c.tc : Thread nD τ).loc main_arg2)) (m ((c.tc : Thread nD τ).loc main_arg3)) (m ((c.tc : Thread nD τ).loc main_arg4)) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 4000000 in
/-- The table of box widths is the reference's stage `%28`. -/
theorem width_eq (c : Dev nD) :
    (V m c main_v28 : S64.Idx → BitVec 32)
      = Cert.ReferenceIdeal.Read.val_main_v28 (F := F) (m ((c.tc : Thread nD τ).loc main_arg1)) (m ((c.tc : Thread nD τ).loc main_arg2)) (m ((c.tc : Thread nD τ).loc main_arg3)) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

end Cert.KernelIdeal.BoxWords

end
-- ==== Proof.KernelErases.lean ====
/-
  The kernel computes the erased image.

  The launch has 64 grid points, one per sample. At point `t` the pipeline stages block `t` of the image — the
  [1, 3, 512, 512] slab of sample `t` — and writes back block `t` of the result: both windows move with the point along
  the first axis and are fixed on the others, and the table offset at point `t` is `t` (three facts decided over the
  64 points). What point `t` leaves in the staging buffer (`PointStores.lean`) is, entry by entry
  (`StoredEntry.lean`), the slab's entry times the box factor of sample `t`'s four words: block `t` of the erased
  image of the image array and the four tables. The 64 blocks tile the result array — entry `(b, c, y, x)` lies in
  block `b` — so the array ends holding the erased image (`Dat.arrAt_eq_of_cover`). The four tables are the
  reference's box words (`BoxWords.lean`) and the image array is the argument as launched.
-/
import proofs.«147597_j54065048322154_1_alg».proof.Proof.PointStores
import proofs.«147597_j54065048322154_1_alg».proof.Proof.StoredEntry
import proofs.«147597_j54065048322154_1_alg».proof.Proof.BoxWords
import proofs.«147597_j54065048322154_1_alg».proof.Proof.ErasedImage

set_option maxRecDepth 16384

noncomputable section

namespace Cert.KernelIdeal.Erases

open Cert.KernelIdeal Cert.KernelIdeal.Gen Cert.KernelIdeal.GenP
open Idealize.ShloMosaic Idealize.ShloMosaic.TcCoe Idealize.ShloMosaic.ValueIdx Idealize.SL.Sem Cert.Erase
open Idealize.ShloMosaic.Pipeline (Dat)

variable {F : FTy → Type} [FloatOps F]
variable (m : (ℓ : Loc nD τ sig) → Buf (Elt F) ℓ) (ρ : Dev nD → PrngReg)

/-- An entry of the erased image, from its pieces: the image's entry at `i`, and the box factor of sample `k`'s four
    words at row `y` and column `x`, when `i` is `(k, _, y, x)`. -/
theorem erased_entry (img : (⟨4, ![64, 3, 512, 512]⟩ : Shape).Idx → F .f32) (T0 T1 T2 T3 : (⟨1, ![64]⟩ : Shape).Idx → BitVec 32)
    (i i' : (⟨4, ![64, 3, 512, 512]⟩ : Shape).Idx) (k : Fin 64) (y x : Nat)
    (hi : i' = i) (hk : (i 0).val = k.val) (hy : (i 2).val = y) (hx : (i 3).val = x) :
    FloatOps.mulf (img i') (factor (T0 (ix1 k)) (T1 (ix1 k)) (T2 (ix1 k)) (T3 (ix1 k)) y x) = erased img T0 T1 T2 T3 i := by
  subst hy hx
  rw [hi]
  have hs : sampleOf i = ix1 k := congrArg ix1 (Fin.ext hk)
  unfold erased
  rw [hs]

/-- Decided over the 64 grid points: the table offset at point `t` is `t`, and each window's block index at point `t`
    is `(t, 0, 0, 0)`. -/
theorem point_facts : ∀ t : Fin grid0.N, k0_off1 (grid0.coords t) 0 = t.val
    ∧ cc0_transform_0 (grid0.coords t) 0 = t.val ∧ cc0_transform_0 (grid0.coords t) 1 = 0
    ∧ cc0_transform_0 (grid0.coords t) 2 = 0 ∧ cc0_transform_0 (grid0.coords t) 3 = 0
    ∧ cc0_transform_1 (grid0.coords t) 0 = t.val ∧ cc0_transform_1 (grid0.coords t) 1 = 0
    ∧ cc0_transform_1 (grid0.coords t) 2 = 0 ∧ cc0_transform_1 (grid0.coords t) 3 = 0 := by
  decide +kernel

/-- What the result array ends holding, over the arrays as the region finds them: the erased image of the image array
    with the four tables' words. -/
def found (c : Dev nD) : Buf (Elt F) ((c : Thread nD τ).loc main_v45) :=
  erased (V m c main_arg0) (tbl m 0) (tbl m 1) (tbl m 2) (tbl m 3)

-- the window's block type and the literal block shape are one type only after unfolding the window (as in the frame's own run)
set_option backward.isDefEq.respectTransparency.types false in
/-- WHAT POINT `t` WRITES BACK is block `t` of that erased image. -/
theorem flushed_eq (hO : Ok m) (c : Dev nD) (t : Fin (cfgM m hO).N) :
    (dats m hO 0 c).flushed 1 t = (((cfgM m hO).win 1).blk t).view.read (Elt F) (found m c) := by
  have hN : (cfgM m hO).N = 64 := N_0
  obtain ⟨f0, a0, a1, a2, a3, b0, b1, b2, b3⟩ := point_facts t
  show ((cfgM m hO).win 1).cut (grid0.coords t) ((dats m hO 0 c).after 1 t) = _
  rw [after0_1]
  unfold outsAt0
  rw [PointStores.stored c (grid0.coords t) _ _ _ _ _ _ _ _ _ ⟨t.val, by have := t.isLt; omega⟩ f0]
  refine funext fun (j : S1x3x512x512.Idx) => ?_
  show k0_pay1 (F := F) _ _ _ _ (iblk m hO c 0 t) j = found m c ((((cfgM m hO).win 1).blk t).view.emb j)
  rw [Stored.stored_apply]
  have hj0 : (j 0).val = 0 := by have h := (j 0).isLt; have e : S1x3x512x512.size 0 = 1 := (by decide); omega
  unfold found
  refine erased_entry (V m c main_arg0) (tbl m 0) (tbl m 1) (tbl m 2) (tbl m 3) _ _ ⟨t.val, by have := t.isLt; omega⟩ _ _ ?_ ?_ ?_ ?_
  · -- the input block's entry `j` and the output block's entry `j` are the same entry of their arrays
    funext a
    apply Fin.ext
    match a with
    | ⟨0, _⟩ => show cc0_transform_0 (grid0.coords t) 0 * 1 + 1 * (j 0).val = cc0_transform_1 (grid0.coords t) 0 * 1 + 1 * (j 0).val; omega
    | ⟨1, _⟩ => show cc0_transform_0 (grid0.coords t) 1 * 3 + 1 * (j 1).val = cc0_transform_1 (grid0.coords t) 1 * 3 + 1 * (j 1).val; omega
    | ⟨2, _⟩ => show cc0_transform_0 (grid0.coords t) 2 * 512 + 1 * (j 2).val = cc0_transform_1 (grid0.coords t) 2 * 512 + 1 * (j 2).val; omega
    | ⟨3, _⟩ => show cc0_transform_0 (grid0.coords t) 3 * 512 + 1 * (j 3).val = cc0_transform_1 (grid0.coords t) 3 * 512 + 1 * (j 3).val; omega
  · show cc0_transform_1 (grid0.coords t) 0 * 1 + 1 * (j 0).val = t.val; omega
  · show cc0_transform_1 (grid0.coords t) 2 * 512 + 1 * (j 2).val = (j 2).val; omega
  · show cc0_transform_1 (grid0.coords t) 3 * 512 + 1 * (j 3).val = (j 3).val; omega

set_option backward.isDefEq.respectTransparency.types false in
/-- Every entry `(b, c, y, x)` of the result array lies in the block point `b` writes back. -/
theorem covered (hO : Ok m) (c : Dev nD) (i : S64x3x512x512.Idx) :
    ∃ t : Fin (cfgM m hO).N, ((cfgM m hO).win 1).flush t = true ∧ i ∈ (((cfgM m hO).win 1).blk t).view.set := by
  have hN : (cfgM m hO).N = 64 := N_0
  have hi0 : (i 0).val < 64 := (i 0).isLt
  have hi1 : (i 1).val < 3 := (i 1).isLt
  have hi2 : (i 2).val < 512 := (i 2).isLt
  have hi3 : (i 3).val < 512 := (i 3).isLt
  have ht : (i 0).val < (cfgM m hO).N := by omega
  obtain ⟨f0, a0, a1, a2, a3, b0, b1, b2, b3⟩ := point_facts (⟨(i 0).val, ht⟩ : Fin (cfgM m hO).N)
  have b0' : cc0_transform_1 (grid0.coords ⟨(i 0).val, ht⟩) 0 = (i 0).val := b0
  refine ⟨⟨(i 0).val, ht⟩, flush0_1 (adm m hO) _, ?_⟩
  show i ∈ ((View.whole main_v45).slice (((cfgM m hO).win 1).rect ⟨(i 0).val, ht⟩)).set
  rw [View.set_slice_whole]
  refine Rect.mem_set_unit.mpr (fun (a : Fin 4) => ?_)
  match a with
  | ⟨0, _⟩ => show cc0_transform_1 (grid0.coords ⟨(i 0).val, ht⟩) 0 * 1 ≤ (i 0).val ∧ (i 0).val < cc0_transform_1 (grid0.coords ⟨(i 0).val, ht⟩) 0 * 1 + 1; omega
  | ⟨1, _⟩ => show cc0_transform_1 (grid0.coords ⟨(i 0).val, ht⟩) 1 * 3 ≤ (i 1).val ∧ (i 1).val < cc0_transform_1 (grid0.coords ⟨(i 0).val, ht⟩) 1 * 3 + 3; omega
  | ⟨2, _⟩ => show cc0_transform_1 (grid0.coords ⟨(i 0).val, ht⟩) 2 * 512 ≤ (i 2).val ∧ (i 2).val < cc0_transform_1 (grid0.coords ⟨(i 0).val, ht⟩) 2 * 512 + 512; omega
  | ⟨3, _⟩ => show cc0_transform_1 (grid0.coords ⟨(i 0).val, ht⟩) 3 * 512 ≤ (i 3).val ∧ (i 3).val < cc0_transform_1 (grid0.coords ⟨(i 0).val, ht⟩) 3 * 512 + 512; omega

/-- THE RESULT ARRAY after the run is the erased image over the arrays the region found. -/
theorem final (hO : Ok m) (c : Dev nD) : (dats m hO 0 c).arrAt 1 (cfgM m hO).N = found m c :=
  (dats m hO 0 c).arrAt_eq_of_cover 1 (found m c) (fun t _ => flushed_eq m hO c t) (covered m hO c)

/-- The arrays the region found, read back to the launch: the image is the first argument, and the four tables are the
    reference's box words of the other five. -/
theorem found_eq (c : Dev nD) :
    found m c = erased (m ((c.tc : Thread nD τ).loc main_arg0))
      (Cert.ReferenceIdeal.Read.val_main_v44 (F := F) (m ((c.tc : Thread nD τ).loc main_arg1)) (m ((c.tc : Thread nD τ).loc main_arg2)) (m ((c.tc : Thread nD τ).loc main_arg3)) (m ((c.tc : Thread nD τ).loc main_arg5)))
      (Cert.ReferenceIdeal.Read.val_main_v23 (F := F) (m ((c.tc : Thread nD τ).loc main_arg1)) (m ((c.tc : Thread nD τ).loc main_arg2)) (m ((c.tc : Thread nD τ).loc main_arg3)))
      (Cert.ReferenceIdeal.Read.val_main_v36 (F := F) (m ((c.tc : Thread nD τ).loc main_arg1)) (m ((c.tc : Thread nD τ).loc main_arg2)) (m ((c.tc : Thread nD τ).loc main_arg3)) (m ((c.tc : Thread nD τ).loc main_arg4)))
      (Cert.ReferenceIdeal.Read.val_main_v28 (F := F) (m ((c.tc : Thread nD τ).loc main_arg1)) (m ((c.tc : Thread nD τ).loc main_arg2)) (m ((c.tc : Thread nD τ).loc main_arg3))) := by
  obtain rfl : c = 0 := Subsingleton.elim _ _
  show erased (V m 0 main_arg0) (V m 0 main_v44) (V m 0 main_v23) (V m 0 main_v36) (V m 0 main_v28) = _
  rw [BoxWords.top_eq, BoxWords.height_eq, BoxWords.left_eq, BoxWords.width_eq, V_main_arg0]

/-- THE RUN, READ: every weakly fair execution of the kernel's program ends with the result array at the erased image
    of the first argument with the reference's box words of the other five, and with the six arguments unchanged. -/
theorem run (hO : Ok m) : θ_run defs (onTc (τ := τ) (main (F := F))) ⟨m, fun _ => 0, ρ⟩ fun r => ∀ c : Dev nD,
      r.2.mem ((c.tc : Thread nD τ).loc main_v45) = erased (m ((c.tc : Thread nD τ).loc main_arg0))
          (Cert.ReferenceIdeal.Read.val_main_v44 (F := F) (m ((c.tc : Thread nD τ).loc main_arg1)) (m ((c.tc : Thread nD τ).loc main_arg2)) (m ((c.tc : Thread nD τ).loc main_arg3)) (m ((c.tc : Thread nD τ).loc main_arg5)))
          (Cert.ReferenceIdeal.Read.val_main_v23 (F := F) (m ((c.tc : Thread nD τ).loc main_arg1)) (m ((c.tc : Thread nD τ).loc main_arg2)) (m ((c.tc : Thread nD τ).loc main_arg3)))
          (Cert.ReferenceIdeal.Read.val_main_v36 (F := F) (m ((c.tc : Thread nD τ).loc main_arg1)) (m ((c.tc : Thread nD τ).loc main_arg2)) (m ((c.tc : Thread nD τ).loc main_arg3)) (m ((c.tc : Thread nD τ).loc main_arg4)))
          (Cert.ReferenceIdeal.Read.val_main_v28 (F := F) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 1).trans ((final m hO c).trans (found_eq m c)),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO)

end Cert.KernelIdeal.Erases

end
-- ==== Proof.ReferenceErases.lean ====
/-
  The reference computes the erased image.

  The reference forms, for every sample `b`, the row condition `top b ≤ y < top b + height b` as a [64, 512] table and
  the column condition `left b ≤ x < left b + width b` as another, stretches the first along the columns and the second
  along the rows, takes their conjunction, selects `0` or `1` by it, stretches that over the three channels and
  multiplies the image by it. Read at one entry `(b, c, y, x)`, every stretch only forgets a coordinate, so the factor is
  the box test of sample `b` at row `y` and column `x`: the erased image of `ErasedImage.lean`, with the four words the
  reference's own integer stages `%44` (top), `%23` (height), `%36` (left) and `%28` (width). Those four stages are
  never opened here: they are carried as functions of the five per-sample float arguments.
-/
import proofs.«147597_j54065048322154_1_alg».proof.Proof.Gen.ReferenceIdeal.Read
import proofs.«147597_j54065048322154_1_alg».proof.Proof.ErasedImage

noncomputable section

namespace Cert.ReferenceIdeal.Erases

open Cert.ReferenceIdeal Cert.ReferenceIdeal.Read Idealize.ShloMosaic Idealize.ShloMosaic.ValueIdx Cert.Erase

variable {F : FTy → Type} [FloatOps F]

/-- The reference's result, as a function of its six arguments, is the erased image of the first argument with the box
    words its integer stages compute from the other five. -/
theorem result_erased (x0 : (⟨S64x3x512x512, .f32⟩ : BufTy).Contents (Elt F)) (x1 x2 x3 x4 x5 : (⟨S64, .f32⟩ : BufTy).Contents (Elt F)) :
    val_main_v79 (F := F) x0 x1 x2 x3 x4 x5
      = erased x0 (val_main_v44 (F := F) x1 x2 x3 x5) (val_main_v23 (F := F) x1 x2 x3)
          (val_main_v36 (F := F) x1 x2 x3 x4) (val_main_v28 (F := F) x1 x2 x3) := by
  funext i
  -- the product, the stretch over channels, the selection, the conjunctions, the comparisons and the stretches under them
  simp only [val_main_v79_apply, val_main_v78_apply, val_main_v77_apply, val_main_v76_apply, val_main_v75_apply,
    val_main_v73_apply, val_main_v74_apply, val_main_v71_apply, val_main_v72_apply, val_main_v58_apply, val_main_v70_apply,
    val_main_v51_apply, val_main_v57_apply, val_main_v63_apply, val_main_v69_apply,
    val_main_v49_apply, val_main_v50_apply, val_main_v55_apply, val_main_v56_apply,
    val_main_v61_apply, val_main_v62_apply, val_main_v67_apply, val_main_v68_apply,
    val_main_v47_apply, val_main_v48_apply, val_main_v52_apply, val_main_v54_apply,
    val_main_v59_apply, val_main_v60_apply, val_main_v64_apply, val_main_v66_apply,
    val_main_v45_apply, val_main_v46_apply, val_main_v53_apply, val_main_v65_apply,
    val_main_call6_v0_apply, val_main_call6_v1_apply, val_main_cst_14_apply, val_main_cst_15_apply]
  -- each per-sample word is read at the sample's index: an index of a one-axis array is its one coordinate
  rw [eq_ix1 (idx_main_v48 _), eq_ix1 (idx_main_v54 _), eq_ix1 (idx_main_v60 _), eq_ix1 (idx_main_v66 _)]
  rfl

end Cert.ReferenceIdeal.Erases

end
-- ==== Proof.lean ====
/-
  Erasing a random box from each image of a batch: the kernel against its reference, over the extended reals.

  Both programs take a batch of 64 images (3 channels, 512 × 512) and five per-sample numbers, and from those numbers
  compute for each sample a box — top, height, left, width, four 32-bit integers — by the same host operations on the
  same constants. The result is the image with every entry inside its sample's box multiplied by `0` and every other
  entry by `1`. The reference builds the 0/1 factor as a whole array on the host; the kernel builds it block by block,
  one sample per grid point, from the four integers of the point's sample, which it is handed as tables.

  `ErasedImage.lean` states the common result as one function of the image and of four integer tables.
  `ReferenceErases.lean` shows the reference's result is that function, with its own integer stages as the tables.
  `StoredEntry.lean`, `PointStores.lean`, `BoxWords.lean` and `KernelErases.lean` show the kernel's result is the same
  function of the same tables: what a point stores entry by entry, what a point leaves in its staging buffer, that the
  kernel's four tables are the reference's integer stages, and that the 64 written blocks tile the result.

  Equality needs no algebra: entry by entry both sides are the same product `image · factor`, the factor chosen by the
  same integer comparisons, so the finiteness of the inputs is never used. The kernel's idealization rewrote nothing,
  and the pipeline's side condition on the tables is empty (no block index reads a table), so the frames hold outright.
-/
import proofs.«147597_j54065048322154_1_alg».proof.Defs
import proofs.«147597_j54065048322154_1_alg».proof.Proof.Gen.Kernel
import proofs.«147597_j54065048322154_1_alg».proof.Proof.Gen.KernelIdeal
import proofs.«147597_j54065048322154_1_alg».proof.Proof.Gen.ReferenceIdeal
import proofs.«147597_j54065048322154_1_alg».proof.Proof.Gen.Pre_finite_inputs
import proofs.«147597_j54065048322154_1_alg».proof.Proof.Gen.ReferenceIdeal.Run
import proofs.«147597_j54065048322154_1_alg».proof.Proof.Patched.Kernel.Frame
import proofs.«147597_j54065048322154_1_alg».proof.Proof.Patched.KernelIdeal.Frame
import proofs.«147597_j54065048322154_1_alg».proof.Proof.KernelErases
import proofs.«147597_j54065048322154_1_alg».proof.Proof.ReferenceErases
import Idealize.ShloMosaic.Adequacy
import Idealize.ShloMosaic.Init

noncomputable section

namespace Cert.Proof

open Idealize.ShloMosaic Idealize.SL.Sem

/-- The word-level kernel runs and keeps its arguments: no window's block index reads a table, so the side condition on
    the tables' contents is `True`. -/
theorem frame_kernel : Cert.frame_Kernel := fun m ρ _ => Cert.Kernel.GenP.frame m ρ trivial

/-- The same for the idealized kernel. -/
theorem frame_kernelIdeal : Cert.frame_KernelIdeal := fun m ρ _ => Cert.KernelIdeal.GenP.frame m ρ trivial

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the erased image of the first argument under
    the box words of the other five. -/
theorem algebraic : Cert.algebraic_KernelIdeal_ReferenceIdeal := by
  intro m ρ m' ρ' _ hagree
  refine ⟨_, Cert.KernelIdeal.Erases.run (F := Ideal) m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, Cert.ReferenceIdeal.Erases.result_erased,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
